-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S32x8x128 : Shape := ⟨3, ![32, 8, 128]⟩
abbrev S256x16384 : Shape := ⟨2, ![256, 16384]⟩
abbrev S1x8x128 : Shape := ⟨3, ![1, 8, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 10
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S32x8x128, .f32⟩
  | .hbm, ⟨2, _⟩ => ⟨S32x1x1, .f32⟩
  | .hbm, ⟨3, _⟩ => ⟨S32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S256x16384, .f32⟩
  | .local _ .vmem, ⟨1, _⟩ => ⟨S256x16384, .f32⟩
  | .local _ .vmem, ⟨2, _⟩ => ⟨S1x8x128, .f32⟩
  | .local _ .vmem, ⟨3, _⟩ => ⟨S1x8x128, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S8192x16384.size a
  hwx0_0 : ∀ i : grid0.Coords, EltTy.bits .f32 = 32 ∨ (Rect.block (s := S8192x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S32x8x128.size a
  hwx0_1 : ∀ i : grid0.Coords, EltTy.bits .f32 = 32 ∨ (Rect.block (s := S32x8x128) S1x8x128.size (cc0_transform_1 i) (hinb0_1 i)).WholeWords (EltTy.packing .f32)

variable [Facts₀]

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩
abbrev S8192 : Shape := ⟨1, ![8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S_, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_cst_4 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S8192x16384_S8192_d1 : S8192x16384.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.TileValue.lean ====
/-
  What the kernel's body computes at one grid point, on the extended reals: from its block `x0` of 256 rows and
  16384 columns it stores, at EVERY entry of its [1, 8, 128] output block, the one number

      Σ_{r < 256} max (Σ_{k < 16384} x0[r, k] − 1, 0),

  the block's 256 row hinges added. The body takes the row sums by a lane reduction, views them as a column, subtracts
  one and clamps at zero entry by entry, views the column as a [1, 256, 1] array, adds all of it up and splats the
  total over the output block; each of those steps is read at an index below.
-/
import proofs.«181879_j37890201485738_2_alg».proof.Proof.Gen.KernelIdeal.Skeleton
import proofs.«181879_j37890201485738_2_alg».proof.Proof.LibSumBlocks
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The hinge of row `r` of a block: the row's sum, less one, clamped below at zero. -/
def blockHinge (x0 : FVec Ideal S256x16384 .f32) (r : Fin 256) : EReal :=
  max ((∑ k : Fin 16384, x0 (ix2 r k)) - Ideal.ofBits .f32 0x3F800000#32) (Ideal.ofBits .f32 0x00000000#32)

/-- The lane reduction of the block, at row `r`, is the sum of that row's 16384 entries. -/
theorem rowSum_apply (x0 : FVec Ideal S256x16384 .f32) (r : Fin 256) :
    multiReduction (F := Ideal) .add [1] S256 x0 0x00000000#32 reduces_S256x16384_S256 (.inl rfl) rfl (ix1 r)
      = ∑ k : Fin 16384, x0 (ix2 r k) := by
  refine (Ideal.multiReduction_add_single x0 0x00000000#32 reduces_S256x16384_S256 (.inl rfl) rfl (ix1 r)).trans ?_
  exact Finset.sum_congr rfl fun k _ => congrArg x0 (funext fun a => Fin.ext (by match a with | ⟨0, _⟩ => rfl | ⟨1, _⟩ => rfl))

/-- The row sums viewed as a column, less one, clamped at zero, viewed as a [1, 256, 1] array: at (0, r, 0) it is
    the clamp of row sum `r` less one. -/
theorem hingeCol_apply (v1 : FVec Ideal S256 .f32) (one zero : Ideal .f32) (r : Fin 256) :
    shapeCast S1x256x1 (maximumf (subf (shapeCast S256x1 v1 shapeCasts_S256_S256x1) (broadcast S256x1 one))
        (broadcast S256x1 zero)) shapeCasts_S256x1_S1x256x1 (ix3 (0 : Fin 1) r (0 : Fin 1))
      = max (v1 (ix1 r) - one) zero := by
  refine (shapeCast_apply _ shapeCasts_S256x1_S1x256x1 (ix3 (0 : Fin 1) r (0 : Fin 1)) (ix2 r (0 : Fin 1)) ?_).trans ?_
  · rw [Shape.rowMajor_val_two, Shape.rowMajor_val_three]
    show r.val * 1 + 0 = (0 * 256 + r.val) * 1 + 0
    omega
  · show max (shapeCast S256x1 v1 shapeCasts_S256_S256x1 (ix2 r (0 : Fin 1)) - one) zero = _
    refine congrArg (fun s => max (s - one) zero) ?_
    refine shapeCast_apply v1 shapeCasts_S256_S256x1 (ix2 r (0 : Fin 1)) (ix1 r) ?_
    rw [Shape.rowMajor_val_one, Shape.rowMajor_val_two]
    show r.val = r.val * 1 + 0
    omega

/-- The reduction of a [1, 256, 1] array over its last two axes, at its one index, is the sum over the middle
    coordinate. -/
theorem total_apply (v7 : FVec Ideal S1x256x1 .f32) (j : S1.Idx) :
    multiReduction (F := Ideal) .add [1, 2] S1 v7 0x00000000#32 reduces_S1x256x1_S1 (.inl rfl) rfl j
      = ∑ r : Fin 256, v7 (ix3 (0 : Fin 1) r (0 : Fin 1)) := by
  refine (Ideal.multiReduction_add_total v7 0x00000000#32 reduces_S1x256x1_S1 (fun b => ?_) (.inl rfl) rfl j).trans ?_
  · match b with | ⟨0, _⟩ => rfl
  · exact Cert.Lib.SumBlocks.sum_idxMid v7

/-- A one-entry vector viewed as a [1, 1, 1] array reads its one entry wherever it is read. -/
theorem single_apply (v8 : FVec Ideal S1 .f32) (p : S1x1x1.Idx) (k : S1.Idx) :
    shapeCast S1x1x1 v8 shapeCasts_S1_S1x1x1 p = v8 k := by
  refine shapeCast_apply v8 shapeCasts_S1_S1x1x1 p k ?_
  have h1 : (S1.rowMajor k).val < S1.numel := (S1.rowMajor k).isLt
  have h2 : (S1x1x1.rowMajor p).val < S1x1x1.numel := (S1x1x1.rowMajor p).isLt
  have n1 : S1.numel = 1 := by decide
  have n2 : S1x1x1.numel = 1 := by decide
  omega

/-- THE BODY'S STORED VALUE, at any entry `y` of the output block: the block's 256 row hinges added. -/
theorem pay_apply (x0 : FVec Ideal S256x16384 .f32) (y : S1x8x128.Idx) :
    k0_pay1 (F := Ideal) x0 y = ∑ r : Fin 256, blockHinge x0 r := by
  unfold k0_pay1
  dsimp only [extractAt]
  refine (single_apply _ _ (ix1 (0 : Fin 1))).trans ?_
  refine (total_apply _ (ix1 (0 : Fin 1))).trans ?_
  refine Finset.sum_congr rfl fun r _ => ?_
  refine (hingeCol_apply _ _ _ r).trans ?_
  exact congrArg (fun s => max (s - Ideal.ofBits .f32 0x3F800000#32) (Ideal.ofBits .f32 0x00000000#32)) (rowSum_apply x0 r)

end Cert.KernelIdeal.Hand

end
-- ==== Proof.HingeMean.lean ====
/-
  The function both programs compute, on the extended reals: for an array `B` of 8192 rows and 16384 columns,

      loss B = 1 · ((Σ_r max (Σ_k B[r, k] − 1, 0)) / 8192),

  the mean over the rows of each row's sum less one, clamped below at zero. The reference takes the sum over all
  8192 rows at once; the kernel takes it tile by tile, 32 tiles of 256 consecutive rows, and adds the 32 partial sums.
  The two arrangements agree because addition of extended reals is commutative and associative (`sum_tiles`): no
  entry needs to be finite for that.
-/
import Idealize.ShloMosaic.PureOps.Ideal
import Idealize.ShloMosaic.Lib.ValueIdx
import proofs.«181879_j37890201485738_2_alg».proof.Proof.LibSumBlocks

noncomputable section

open scoped BigOperators

namespace Cert.HingeMean

open Idealize.ShloMosaic Idealize.ShloMosaic.ValueIdx

/-- An array of 8192 rows and 16384 columns of extended reals. -/
abbrev Arr : Type := (⟨2, ![8192, 16384]⟩ : Shape).Idx → EReal

/-- One row's hinge: the sum of the row's entries, less one, clamped below at zero. -/
def hinge (B : Arr) (r : Fin 8192) : EReal :=
  max ((∑ k : Fin 16384, B (ix2 r k)) - Ideal.ofBits .f32 0x3F800000#32) (Ideal.ofBits .f32 0x00000000#32)

/-- Row `r` of tile `t` is row `256 t + r` of the array. -/
def rowOf (t : Fin 32) (r : Fin 256) : Fin 8192 :=
  ⟨t.val * 256 + r.val, by have := t.isLt; have := r.isLt; omega⟩

/-- One tile's partial sum: the hinges of its 256 rows added. -/
def tile (B : Arr) (t : Fin 32) : EReal := ∑ r : Fin 256, hinge B (rowOf t r)

/-- The scalar operations that end both programs: the quotient by 8192, then the product with one. -/
def scale (s : EReal) : EReal :=
  Ideal.ofBits .f32 0x3F800000#32 * Ideal.div s (Ideal.ofBits .f32 0x46000000#32)

/-- The result as the reference arranges it: all rows' hinges added, scaled. -/
def loss (B : Arr) : EReal := scale (∑ r : Fin 8192, hinge B r)

/-- The 32 tiles' partial sums add up to the sum over all 8192 rows. -/
theorem sum_tiles (B : Arr) : ∑ t : Fin 32, tile B t = ∑ r : Fin 8192, hinge B r :=
  (Cert.Lib.SumBlocks.sum_blocks 32 256 8192 rfl (hinge B) rowOf (fun _ _ => rfl)).symm

/-- So the result as the kernel arranges it is the same extended real. -/
theorem scale_tiles (B : Arr) : scale (∑ t : Fin 32, tile B t) = loss B := by
  unfold loss
  rw [sum_tiles]

end Cert.HingeMean

end
-- ==== Proof.TileArray.lean ====
/-
  The array of partial sums after the kernel's 32 grid points have run. Grid point `t` fetches rows
  `256 t … 256 t + 255` of the argument (all 16384 columns) and writes back slab `t` of the [32, 8, 128] output, every
  entry of the slab holding tile `t`'s partial sum. The 32 slabs tile the output array, so after the run entry
  (t, a, b) of the array is tile `t`'s partial sum, whatever a and b are.
-/
import proofs.«181879_j37890201485738_2_alg».proof.Proof.Gen.KernelIdeal.Frame
import proofs.«181879_j37890201485738_2_alg».proof.Proof.TileValue
import proofs.«181879_j37890201485738_2_alg».proof.Proof.HingeMean
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The array of partial sums: entry (t, a, b) is tile `t`'s partial sum. -/
def partials (B : Cert.HingeMean.Arr) : S32x8x128.Idx → EReal :=
  fun i => Cert.HingeMean.tile B ⟨(i 0).val, (i 0).isLt⟩

/-- The printed index maps over the 32 grid points: the input's block index at point `t` is (t, 0), the output's
    (t, 0, 0). -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Entry (r, k) of the input block at point `t` is entry (256 t + r, k) of the argument array. -/
theorem iblk_apply (c : Dev nD) (t : Fin cfg0.N) (r : Fin 256) (k : Fin 16384) (R : Fin 8192)
    (hR : R.val = t.val * 256 + r.val) :
    (iblk m c 0 t : Vec Ideal S256x16384 .f32) (ix2 r k)
      = (m ((c : Thread nD τ).loc main_arg0) : S8192x16384.Idx → EReal) (ix2 R k) := by
  obtain ⟨e0, e1, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 256 + 1 * r.val = R.val; rw [e0, hR]; omega
  | ⟨1, _⟩ => show win0_0.index t (1 : Fin 2) * 16384 + 1 * k.val = k.val; rw [e1]; omega

/-- WHAT POINT `t` WRITES BACK is slab `t` of the array of partial sums of the argument. -/
theorem flushed_eq (c : Dev nD) (t : Fin cfg0.N) :
    (dats m 0 c).flushed 1 t
      = ((cfg0.win 1).blk t).view.read (Elt Ideal) (partials (m ((c : Thread nD τ).loc main_arg0))) := by
  show (cfg0.win 1).cut (grid0.coords t) ((dats m 0 c).after 1 t) = _
  rw [after0_1]
  unfold out0_1
  rw [View.canon_unit_zero hz3]
  simp only [View.ld_unit_zero (S := S256x16384) hz2]
  obtain ⟨-, -, e2, -, -⟩ := idx_facts t
  funext j
  show k0_pay1 (F := Ideal) (iblk m c 0 t) j
    = partials (m ((c : Thread nD τ).loc main_arg0)) (((cfg0.win 1).blk t).view.emb j)
  refine (pay_apply (iblk m c 0 t) j).trans ?_
  unfold partials Cert.HingeMean.tile
  refine Finset.sum_congr rfl fun r _ => ?_
  unfold blockHinge Cert.HingeMean.hinge
  refine congrArg (fun s => max (s - Ideal.ofBits .f32 0x3F800000#32) (Ideal.ofBits .f32 0x00000000#32)) ?_
  refine Finset.sum_congr rfl fun k _ => ?_
  refine iblk_apply m c t r k _ ?_
  have hj : (j 0).val < 1 := (j 0).isLt
  show (win0_1.index t (0 : Fin 3) * 1 + 1 * (j 0).val) * 256 + r.val = t.val * 256 + r.val
  rw [e2]
  omega

/-- An index of the output array is in point `t`'s slab iff each coordinate is in the slab's range on its axis. -/
theorem mem_blk (t : Fin cfg0.N) (i : S32x8x128.Idx) :
    i ∈ ((cfg0.win 1).blk t).view.set ↔ ∀ a : Fin 3, win0_1.index t a * S1x8x128.size a ≤ (i a).val
      ∧ (i a).val < win0_1.index t a * S1x8x128.size a + S1x8x128.size a := by
  show i ∈ ((View.whole main_v0).slice (win0_1.rect t)).set ↔ _
  rw [View.set_slice_whole, Rect.mem_set_unit]
  exact Iff.rfl

/-- Every index (t, a, b) of the output array is in the slab that point `t` writes back. -/
theorem cover (i : S32x8x128.Idx) :
    ∃ t : Fin cfg0.N, (cfg0.win 1).flush t = true ∧ i ∈ ((cfg0.win 1).blk t).view.set := by
  have hi0 : (i 0).val < 32 := (i 0).isLt
  have hi1 : (i 1).val < 8 := (i 1).isLt
  have hi2 : (i 2).val < 128 := (i 2).isLt
  have hN : cfg0.N = 32 := N_0
  obtain ⟨t, ht⟩ : ∃ t : Fin cfg0.N, t.val = (i 0).val := ⟨⟨(i 0).val, by omega⟩, rfl⟩
  obtain ⟨-, -, e2, e3, e4⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    rw [e2]; omega
  | ⟨1, _⟩ =>
    show win0_1.index t (1 : Fin 3) * 8 ≤ (i 1).val ∧ (i 1).val < win0_1.index t (1 : Fin 3) * 8 + 8
    rw [e3]; omega
  | ⟨2, _⟩ =>
    show win0_1.index t (2 : Fin 3) * 128 ≤ (i 2).val ∧ (i 2).val < win0_1.index t (2 : Fin 3) * 128 + 128
    rw [e4]; omega

/-- THE OUTPUT ARRAY AFTER THE RUN is the array of partial sums of the argument. -/
theorem final (c : Dev nD) :
    (dats m 0 c).arrAt 1 cfg0.N = partials (m ((c : Thread nD τ).loc main_arg0)) :=
  (dats m 0 c).arrAt_eq_of_cover 1 (partials (m ((c : Thread nD τ).loc main_arg0)))
    (fun t _ => flushed_eq m c t) cover

end Cert.KernelIdeal.Hand

end
-- ==== Proof.KernelResult.lean ====
/-
  The kernel's result. After the 32 grid points the host reads entry (t, 0, 0) of each slab of the partial-sums array,
  adds the 32 numbers, divides by 8192 and multiplies by one: the result is `scale (Σ_t tile t)`, which is the mean
  hinge `loss` of the argument because the 32 tiles' partial sums add up to the sum over all rows.
-/
import proofs.«181879_j37890201485738_2_alg».proof.Proof.TileArray
import Idealize.ShloMosaic.Lib.StableHlo.Run
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The corner entries of the 32 slabs, gathered into a vector of 32: entry `a` is entry (a, 0, 0) of the array. -/
theorem corners_apply (O : FVec Ideal S32x8x128 .f32) (a : Fin 32) :
    shapeCast S32 (extractStridedSlice S32x1x1 ![0, 0, 0] O slices_S32x8x128_S32x1x1_0_0_0) shapeCasts_S32x1x1_S32 (ix1 a)
      = O (ix3 a (0 : Fin 8) (0 : Fin 128)) := by
  refine (shapeCast_apply _ shapeCasts_S32x1x1_S32 (ix1 a) (ix3 a (0 : Fin 1) (0 : Fin 1)) ?_).trans ?_
  · rw [Shape.rowMajor_val_one, Shape.rowMajor_val_three]
    show (a.val * 1 + 0) * 1 + 0 = a.val
    omega
  · refine extractStridedSlice_apply ![0, 0, 0] O slices_S32x8x128_S32x1x1_0_0_0 (ix3 a (0 : Fin 1) (0 : Fin 1))
      (ix3 a (0 : Fin 8) (0 : Fin 128)) fun b => ?_
    match b with
    | ⟨0, _⟩ => show a.val = 0 + a.val; omega
    | ⟨1, _⟩ => rfl
    | ⟨2, _⟩ => rfl

/-- The host operations after the call, as one function of the partial-sums array. -/
def tail (O : FVec Ideal S32x8x128 .f32) : FVec Ideal S_ .f32 :=
  mulf (constant (F := Ideal) S_ .f32 0x3F800000#32)
    (Host.divf (F := Ideal)
      (Host.reduceAdd (F := Ideal)
        (shapeCast S32 (extractStridedSlice S32x1x1 ![0, 0, 0] O slices_S32x8x128_S32x1x1_0_0_0) shapeCasts_S32x1x1_S32)
        (constant (F := Ideal) S_ .f32 0x00000000#32) reducesTo_S32_S_d0 h_S_)
      (constant (F := Ideal) S_ .f32 0x46000000#32))

/-- Read at its one index: the 32 corner entries added, scaled. -/
theorem tail_apply (O : FVec Ideal S32x8x128 .f32) (i : S_.Idx) :
    tail O i = Cert.HingeMean.scale (∑ a : Fin 32, O (ix3 a (0 : Fin 8) (0 : Fin 128))) := by
  unfold tail Cert.HingeMean.scale
  show Ideal.ofBits .f32 0x3F800000#32 * Ideal.div (Host.reduceAdd (F := Ideal) _ _ reducesTo_S32_S_d0 h_S_ i)
    (Ideal.ofBits .f32 0x46000000#32) = _
  refine congrArg (fun s => Ideal.ofBits .f32 0x3F800000#32 * Ideal.div s (Ideal.ofBits .f32 0x46000000#32)) ?_
  simp only [Host.reduceAdd, Ideal.hostReduceAdd_def]
  refine (Ideal.hostReduceAdd_total reducesTo_S32_S_d0 (fun b => b.elim0) _ _ i).trans ?_
  show Ideal.ofBits .f32 0x00000000#32 + _ = _
  rw [Ideal.ofBits_zero_f32, zero_add, Cert.Lib.SumBlocks.sum_idx1]
  exact Finset.sum_congr rfl fun a _ => corners_apply O a

/-- Of the partial-sums array of `B` it is the mean hinge of `B`. -/
theorem tail_partials (B : Cert.HingeMean.Arr) (i : S_.Idx) : tail (partials B) i = Cert.HingeMean.loss B := by
  rw [tail_apply]
  exact Cert.HingeMean.scale_tiles B

/-- The result buffer is no array of the pipeline, so it ends at what the host operations after the call leave. -/
theorem v5_rest : main_v5 ∈ Pipeline.restRefs sig (cfgs 0).spec :=
  Pipeline.mem_restRefs_of main_v5 rfl (fun w => by fin_cases w <;> decide)

/-- What the host operations after the call leave in the result buffer: `tail` of the partial-sums array. -/
theorem after_tail (c : Dev nD) :
    Pipeline.afterTail₀ cfgs (dats m) 0 (V0 m) [hostOps1] c main_v5
      = tail (partials (m ((c : Thread nD τ).loc main_arg0))) := by
  have e : Pipeline.withArrays (cfgs 0).spec c (V0 m c) (fun w => (dats m 0 c).arrAt w (cfgs 0).N) (Proc.devRef .tc main_v0)
      = partials (m ((c : Thread nD τ).loc main_arg0)) :=
    (Pipeline.withArrays_arr spec0 launch0.win.arr_inj c _ _ 1).trans (final m c)
  unfold Pipeline.afterTail₀
  show StableHlo.after hostOps1 _ (Proc.devRef .tc main_v5) = _
  after_results
  rw [e]
  rfl

/-- THE KERNEL'S RUN, READ: every weakly fair execution terminates with the result at the mean hinge of the argument
    array, the argument unchanged. -/
theorem run : θ_run defs (onTc (τ := τ) (main (F := Ideal))) ⟨m, fun _ => 0, ρ⟩ fun r => ∀ c : Dev nD,
      r.2.mem ((c : Thread nD τ).loc main_v5) = (fun _ => Cert.HingeMean.loss (m ((c : Thread nD τ).loc main_arg0)))
      ∧ r.2.mem ((c : Thread nD τ).loc main_arg0) = m ((c : Thread nD τ).loc main_arg0) :=
  (θ_run defs _ _).mono (fun r h c =>
      ⟨(((h c).2 main_v5 v5_rest).trans (after_tail m c)).trans (funext fun i => tail_partials _ i),
        ((h c).1 0).trans (((dats m 0 c).arrAt_in 0 rfl _).trans ((A_eq m c 0).trans (V_main_arg0 m c)))⟩)
    (run_main m ρ)

end Cert.KernelIdeal.Hand

end
-- ==== Proof.RefResult.lean ====
/-
  The reference's result. It takes each row's sum (from zero), subtracts one, clamps at zero, adds the 8192 hinges (from
  zero), divides by 8192 and multiplies by one: read operation by operation at an index, that is `loss` of the
  argument — the two leading zeros of the sums drop out because `0 + x = x` on the extended reals.
-/
import proofs.«181879_j37890201485738_2_alg».proof.Proof.Gen.ReferenceIdeal.Read
import proofs.«181879_j37890201485738_2_alg».proof.Proof.HingeMean
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic
open Idealize.ShloMosaic.ValueIdx

/-- A sum started from the f32 zero is the sum. -/
theorem zero_add_f32 (x : EReal) : Ideal.ofBits .f32 0x00000000#32 + x = x := by
  rw [Ideal.ofBits_zero_f32, zero_add]

/-- Row `r`'s clamped value as the reference computes it is that row's hinge. -/
theorem hinge_apply (B : (⟨S8192x16384, .f32⟩ : BufTy).Contents (Elt Ideal)) (r : Fin 8192) :
    val_main_v4 (F := Ideal) B (ix1 r) = Cert.HingeMean.hinge B r := by
  rw [val_main_v4_apply, val_main_v2_apply, val_main_v0_apply, val_main_v1_apply, val_main_v3_apply,
    val_main_cst_apply, val_main_cst_0_apply, val_main_cst_1_apply]
  unfold Cert.HingeMean.hinge
  simp only [Ideal.ofBits_def, Ideal.subf_def, Ideal.maximumf_def]
  rw [zero_add_f32]
  refine congrArg (fun s => max (s - Ideal.ofBits .f32 0x3F800000#32) (Ideal.ofBits .f32 0x00000000#32)) ?_
  exact Finset.sum_congr rfl fun k _ => congrArg B (funext fun a => Fin.ext (by match a with | ⟨0, _⟩ => rfl | ⟨1, _⟩ => rfl))

/-- THE REFERENCE'S RESULT, at its one index, is the mean hinge of the argument array. -/
theorem result_apply (B : (⟨S8192x16384, .f32⟩ : BufTy).Contents (Elt Ideal)) (i : S_.Idx) :
    val_main_v7 (F := Ideal) B i = Cert.HingeMean.loss B := by
  rw [val_main_v7_apply, val_main_v6_apply, val_main_v5_apply, val_main_cst_4_apply, val_main_cst_3_apply,
    val_main_cst_2_apply]
  unfold Cert.HingeMean.loss Cert.HingeMean.scale
  simp only [Ideal.ofBits_def, Ideal.mulf_def, Ideal.hostDivf_def]
  rw [zero_add_f32, Cert.Lib.SumBlocks.sum_idx1]
  refine congrArg (fun s => Ideal.ofBits .f32 0x3F800000#32 * Ideal.div s (Ideal.ofBits .f32 0x46000000#32)) ?_
  exact Finset.sum_congr rfl fun r _ => hinge_apply B r

end Cert.ReferenceIdeal.Hand

end
-- ==== Proof.lean ====
/-
  The kernel and its reference compute one extended real from an array `B` of 8192 rows and 16384 columns: the mean
  over the rows of each row's hinge,

      loss B = 1 · ((Σ_r max (Σ_k B[r, k] − 1, 0)) / 8192).

  The reference adds the 8192 hinges at once. The kernel runs 32 grid points; point `t` reads rows 256 t … 256 t + 255,
  adds their 256 hinges and splats that partial sum over slab `t` of a [32, 8, 128] array; the host then reads one
  entry of each slab, adds the 32 partial sums, divides by 8192 and multiplies by one. The two results are equal
  because a sum over 8192 = 32 · 256 rows is the sum over 32 tiles of the sums over each tile's 256 rows: only
  commutativity and associativity of the addition of extended reals are used, so no entry of `B` needs to be finite
  and the precondition is never opened. The literals (1, 0 and 8192) are the same words on both sides.

  The modules: `LibSumBlocks` (sums rearranged), `HingeMean` (the function `loss` and the tiles' law), `TileValue` (what
  one grid point stores), `TileArray` (the partial-sums array after the run), `KernelResult` (the host's last
  operations and the kernel's run read), `RefResult` (the reference's result read). Nothing was rewritten between the word-level
  kernel and its reading on the extended reals, so `preserves` has nothing to state.
-/
import proofs.«181879_j37890201485738_2_alg».proof.Defs
import proofs.«181879_j37890201485738_2_alg».proof.Proof.Gen.Kernel
import proofs.«181879_j37890201485738_2_alg».proof.Proof.Gen.Kernel.Skeleton
import proofs.«181879_j37890201485738_2_alg».proof.Proof.Gen.Kernel.Launch
import proofs.«181879_j37890201485738_2_alg».proof.Proof.Gen.Kernel.Points
import proofs.«181879_j37890201485738_2_alg».proof.Proof.Gen.Kernel.Frame
import proofs.«181879_j37890201485738_2_alg».proof.Proof.Gen.KernelIdeal
import proofs.«181879_j37890201485738_2_alg».proof.Proof.Gen.KernelIdeal.Skeleton
import proofs.«181879_j37890201485738_2_alg».proof.Proof.Gen.KernelIdeal.Launch
import proofs.«181879_j37890201485738_2_alg».proof.Proof.Gen.KernelIdeal.Points
import proofs.«181879_j37890201485738_2_alg».proof.Proof.Gen.KernelIdeal.Frame
import proofs.«181879_j37890201485738_2_alg».proof.Proof.Gen.ReferenceIdeal
import proofs.«181879_j37890201485738_2_alg».proof.Proof.Gen.ReferenceIdeal.Run
import proofs.«181879_j37890201485738_2_alg».proof.Proof.Gen.ReferenceIdeal.Read
import proofs.«181879_j37890201485738_2_alg».proof.Proof.Gen.Pre_finite_inputs
import Idealize.ShloMosaic.Adequacy
import Idealize.ShloMosaic.Init
import proofs.«181879_j37890201485738_2_alg».proof.Proof.KernelResult
import proofs.«181879_j37890201485738_2_alg».proof.Proof.RefResult

noncomputable section

namespace Cert.Proof

open Idealize.ShloMosaic Idealize.ShloMosaic.TcCoe Idealize.SL.Sem

/-- The word-level kernel terminates, faults nowhere and leaves its argument unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on the argument array both programs end with their result at `loss` of that array: the
    kernel by the 32 tiles' partial sums, the reference by the sum over all rows. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v7_eq _).trans
    (funext fun i => Cert.ReferenceIdeal.Hand.result_apply _ i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
